-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_arg1 : IVec S2x600000 32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : IVec S1x600000 32 := (extractStridedSlice S1x600000 ![1, 0] · slices_S2x600000_S1x600000_1_0) main_arg1
  let main_v45 : IVec S600000 32 := shapeCast S600000 main_v44 shapeCasts_S1x600000_S600000
  let main_c_16 : IVec S_ 32 := constantI S_ 32 0#32
  let main_v46 : IVec S600000 32 := broadcastInDim S600000 ![] bcast_S_S600000 main_c_16
  let main_v47 : IVec S600000 1 := cmpi .sge main_v45 main_v46
  let main_c_17 : IVec S_ 1 := constantI S_ 1 1#1
  let main_v48 : IVec S_ 1 := (fun x v => Host.reduce IntOp.andi x v reducesTo_S600000_S_d0 h_S_) main_v47 main_c_17
  let main_v49 : IVec S_ 1 := andi main_v43 main_v48
  main_v49

def fn_part1 {F : FTy → Type} [FloatOps F] (main_arg1 : IVec S2x600000 32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S10000x128 : Shape := ⟨2, ![10000, 128]⟩

abbrev nBuf : Space → Nat
  | .hbm => 56
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S50000x128, .f32⟩
  | .hbm, ⟨32, _⟩ => ⟨S1x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S50000x128, .f32⟩
  | .hbm, ⟨53, _⟩ => ⟨S1x128, .f32⟩
  | .hbm, ⟨54, _⟩ => ⟨S1x128, .f32⟩
  | .hbm, ⟨55, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v17) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with its result array named.

  The program is four segments: the host operations that aggregate the input features, the first region, the host
  operations that aggregate the first region's result, the second region. Every weakly fair execution runs them in
  order and ends with every buffer at the last boundary's contents; the frame only reads the argument arrays off
  that state. Here the result buffer is read off it too: it ends holding what the second region's write-backs
  leave in its result array, and the arguments end as launched.
-/
import proofs.«120092_j54065048323041_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's
    contents and every argument array as launched. -/
theorem run : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«120092_j54065048323041_2_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.LibDenseLayer.lean ====
/-
  A dense layer of a multilayer perceptron, read one row at a time over the extended reals.

  A row h of K activations, a K-by-M weight matrix W and M biases b give the affine row
  c ↦ (∑ k, h k * W k c) + b c; a hidden layer clamps each entry below at zero. A kernel's spelling of the layer
  (matrix-unit product into a zero accumulator, the bias a [1, M] row broadcast down the rows, the clamp against a
  splat zero, narrowing casts that are the identity over the extended reals) and the host's spelling (dot_general,
  the bias an [M] vector broadcast in two steps, the clamp against a broadcast scalar zero) both read, at row p, as
  these functions of row p of the layer's input. Nothing here needs finiteness: both spellings add and multiply
  the same extended reals in the same order.
-/
import proofs.«120092_j54065048323041_2_alg».proof.Proof.LibDotApply
import Idealize.ShloMosaic.PureOps.Ideal.Laws
import Idealize.ShloMosaic.Lib.ValueIdx
import Idealize.ShloMosaic.Lib.Pipeline.Value

noncomputable section

namespace Cert.LibDenseLayer

open Idealize.ShloMosaic Idealize.ShloMosaic.ValueIdx Cert.LibPlainDot Cert.LibDotApply

variable {n K M : Nat}

/-! ## The layer as functions of one row -/

/-- The affine map of a row: entry c is the dot product of the row with column c of W, plus bias c. -/
def affine (h : Fin K → EReal) (W : Fin K → Fin M → EReal) (b : Fin M → EReal) : Fin M → EReal :=
  fun c => (∑ k : Fin K, h k * W k c) + b c

/-- The rectifier: each entry clamped below at the float zero (the word 0x00000000, which denotes 0). -/
def relu (v : Fin M → EReal) : Fin M → EReal := fun c => max (v c) (Ideal.ofBits .f32 0x00000000#32)

/-- Row p of a matrix of extended reals. -/
def row (v : (⟨2, ![n, K]⟩ : Shape).Idx → EReal) (p : Fin n) : Fin K → EReal := fun k => v (ix2 p k)

/-- A matrix of extended reals as a function of its two coordinates. -/
def mat (W : (⟨2, ![K, M]⟩ : Shape).Idx → EReal) : Fin K → Fin M → EReal := fun k c => W (ix2 k c)

/-- A vector of extended reals as a function of its coordinate. -/
def vec (b : (⟨1, ![M]⟩ : Shape).Idx → EReal) : Fin M → EReal := fun c => b (ix1 c)

/-- A coordinate below M is 0 when M = 1: the index a broadcast reads on an axis of extent M. -/
theorem val_eq_ite (c : Fin M) : c.val = if M = 1 then 0 else c.val := by
  have := c.isLt
  split
  · omega
  · rfl

/-- An [M] vector reshaped to a [1, M] matrix has the vector as its row 0: entry (0, c) and entry c sit at the
    same row-major position. -/
theorem row_shapeCast_vec (b : (⟨1, ![M]⟩ : Shape).Idx → EReal) (h : (⟨1, ![M]⟩ : Shape).ShapeCasts ⟨2, ![1, M]⟩) :
    row (shapeCast ⟨2, ![1, M]⟩ b h) 0 = vec b := by
  funext c
  exact shapeCast_apply b h (ix2 0 c) (ix1 c) (by
    rw [Shape.rowMajor_val_one, Shape.rowMajor_val_two]
    show c.val = 0 * M + c.val
    omega)

/-! ## The kernel's spelling -/

/-- The kernel's affine stage: the matrix-unit product of the activations with the weights narrowed to bf16, into a
    zero accumulator, plus the [1, M] bias row broadcast down the n rows. -/
def kAffine (d : DotDims ⟨2, ![n, K]⟩ ⟨2, ![K, M]⟩ ⟨2, ![n, M]⟩) (h : FVec Ideal ⟨2, ![n, K]⟩ .bf16)
    (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) : FVec Ideal ⟨2, ![n, M]⟩ .f32 :=
  addf (matmul d none h (truncf .bf16 W hlt) (constant ⟨2, ![n, M]⟩ .f32 0x00000000#32))
    (broadcastTo ⟨2, ![n, M]⟩ (shapeCast ⟨2, ![1, M]⟩ b hsc) hbc)

/-- The kernel's hidden layer: the affine stage clamped against a splat zero, then narrowed to bf16. -/
def kHidden (d : DotDims ⟨2, ![n, K]⟩ ⟨2, ![K, M]⟩ ⟨2, ![n, M]⟩) (h : FVec Ideal ⟨2, ![n, K]⟩ .bf16)
    (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) : FVec Ideal ⟨2, ![n, M]⟩ .bf16 :=
  truncf .bf16 (maximumf (kAffine d h W b hlt hsc hbc) (broadcast ⟨2, ![n, M]⟩ (Scalar.ofBits .f32 0x00000000#32))) hlt

/-- Row p of the kernel's affine stage is the affine map of row p of the activations; the bias is row 0 of the
    [1, M] block. -/
theorem row_kAffine (d : DotDims ⟨2, ![n, K]⟩ ⟨2, ![K, M]⟩ ⟨2, ![n, M]⟩) (hd : IsPlain d)
    (h : FVec Ideal ⟨2, ![n, K]⟩ .bf16) (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) (p : Fin n) :
    row (kAffine d h W b hlt hsc hbc) p = affine (row h p) (mat W) (row b 0) := by
  funext c
  have hm : FloatOps.matmul d none h (truncf .bf16 W hlt) (constant ⟨2, ![n, M]⟩ .f32 0x00000000#32) (ix2 p c)
      = ∑ k : Fin K, h (ix2 p k) * W (ix2 k c) := matmul_zero_apply d hd none h (truncf .bf16 W hlt) p c
  have hb : broadcastTo ⟨2, ![n, M]⟩ (shapeCast ⟨2, ![1, M]⟩ b hsc) hbc (ix2 p c) = b (ix2 0 c) := by
    rw [shapeCast_self]
    exact broadcastTo_apply b hbc (ix2 p c) (ix2 0 c) (fun a => match a with
      | ⟨0, _⟩ => by show (0 : Nat) = if (1 : Nat) = 1 then 0 else _; rw [if_pos rfl]
      | ⟨1, _⟩ => by show c.val = if M = 1 then 0 else c.val; exact val_eq_ite c)
  show FloatOps.matmul d none h (truncf .bf16 W hlt) (constant ⟨2, ![n, M]⟩ .f32 0x00000000#32) (ix2 p c)
      + broadcastTo ⟨2, ![n, M]⟩ (shapeCast ⟨2, ![1, M]⟩ b hsc) hbc (ix2 p c) = _
  rw [hm, hb]
  rfl

/-- Row p of the kernel's hidden layer is the rectified affine map of row p of the activations. -/
theorem row_kHidden (d : DotDims ⟨2, ![n, K]⟩ ⟨2, ![K, M]⟩ ⟨2, ![n, M]⟩) (hd : IsPlain d)
    (h : FVec Ideal ⟨2, ![n, K]⟩ .bf16) (W : FVec Ideal ⟨2, ![K, M]⟩ .f32) (b : FVec Ideal ⟨2, ![1, M]⟩ .f32)
    (hlt : FTy.bits .bf16 < FTy.bits .f32) (hsc : (⟨2, ![1, M]⟩ : Shape).ShapeCasts ⟨2, ![1, M]⟩)
    (hbc : (⟨2, ![1, M]⟩ : Shape).Broadcasts ⟨2, ![n, M]⟩) (p : Fin n) :
    row (kHidden d h W b hlt hsc hbc) p = relu (affine (row h p) (mat W) (row b 0)) := by
  funext c
  show max (row (kAffine d h W b hlt hsc hbc) p c) (Ideal.ofBits .f32 0x00000000#32) = _
  rw [row_kAffine d hd h W b hlt hsc hbc p]
  rfl

/-! ## The host's spelling -/

/-- The host's affine stage: dot_general of the activations with the weights, plus the [M] bias broadcast first to
    a [1, M] row and then down the n rows. -/
def hAffine (d : DotDims ⟨2, ![n, K]⟩ ⟨2, ![K, M]⟩ ⟨2, ![n, M]⟩) (h : FVec Ideal ⟨2, ![n, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1]) : FVec Ideal ⟨2, ![n, M]⟩ .f32 :=
  addf (Host.dotGeneral d none h W)
    (broadcastInDim ⟨2, ![n, M]⟩ ![0, 1] h2 (broadcastInDim ⟨2, ![1, M]⟩ ![1] h1 b))

/-- The host's hidden layer: the affine stage clamped against a scalar zero broadcast to every entry. -/
def hHidden (d : DotDims ⟨2, ![n, K]⟩ ⟨2, ![K, M]⟩ ⟨2, ![n, M]⟩) (h : FVec Ideal ⟨2, ![n, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1])
    (h0 : (⟨0, ![]⟩ : Shape).BroadcastsInDim ⟨2, ![n, M]⟩ ![]) : FVec Ideal ⟨2, ![n, M]⟩ .f32 :=
  maximumf (hAffine d h W b h1 h2) (broadcastInDim ⟨2, ![n, M]⟩ ![] h0 (constant ⟨0, ![]⟩ .f32 0x00000000#32))

/-- Row p of the host's affine stage is the affine map of row p of the activations. -/
theorem row_hAffine (d : DotDims ⟨2, ![n, K]⟩ ⟨2, ![K, M]⟩ ⟨2, ![n, M]⟩) (hd : IsPlain d)
    (h : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1]) (p : Fin n) :
    row (hAffine d h W b h1 h2) p = affine (row h p) (mat W) (vec b) := by
  funext c
  have hm : FloatOps.dotGeneral d none .single h W (ix2 p c) = ∑ k : Fin K, h (ix2 p k) * W (ix2 k c) :=
    dotGeneral_apply d hd none .single h W p c
  have hb : broadcastInDim ⟨2, ![n, M]⟩ ![0, 1] h2 (broadcastInDim ⟨2, ![1, M]⟩ ![1] h1 b) (ix2 p c) = b (ix1 c) :=
    (broadcastInDim_apply _ h2 (broadcastInDim ⟨2, ![1, M]⟩ ![1] h1 b) (ix2 p c) (ix2 0 c) (fun a => match a with
      | ⟨0, _⟩ => by show (0 : Nat) = if (1 : Nat) = 1 then 0 else _; rw [if_pos rfl]
      | ⟨1, _⟩ => by show c.val = if M = 1 then 0 else c.val; exact val_eq_ite c)).trans
    (broadcastInDim_apply _ h1 b (ix2 0 c) (ix1 c) (fun a => match a with
      | ⟨0, _⟩ => by show c.val = if M = 1 then 0 else c.val; exact val_eq_ite c))
  show FloatOps.dotGeneral d none .single h W (ix2 p c)
      + broadcastInDim ⟨2, ![n, M]⟩ ![0, 1] h2 (broadcastInDim ⟨2, ![1, M]⟩ ![1] h1 b) (ix2 p c) = _
  rw [hm, hb]
  rfl

/-- Row p of the host's hidden layer is the rectified affine map of row p of the activations. -/
theorem row_hHidden (d : DotDims ⟨2, ![n, K]⟩ ⟨2, ![K, M]⟩ ⟨2, ![n, M]⟩) (hd : IsPlain d)
    (h : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1])
    (h0 : (⟨0, ![]⟩ : Shape).BroadcastsInDim ⟨2, ![n, M]⟩ ![]) (p : Fin n) :
    row (hHidden d h W b h1 h2 h0) p = relu (affine (row h p) (mat W) (vec b)) := by
  funext c
  show max (row (hAffine d h W b h1 h2) p c) (Ideal.ofBits .f32 0x00000000#32) = _
  rw [row_hAffine d hd h W b h1 h2 p]
  rfl

end Cert.LibDenseLayer

end
-- ==== Proof.LibMlpRows.lean ====
/-
  The two dense layers of one graph convolution, read one row at a time over the extended reals.

  After the aggregation a convolution applies, to every row z of its input, a hidden layer and an output layer:
  z ↦ (max (z·Wa + ba) 0)·Wb + bb, and the first convolution clamps the result at zero once more. A kernel computes
  this on a block of rows (matrix-unit products into zero accumulators, biases as [1, M] rows, casts that are the
  identity here); the host computes it on the whole matrix (dot_general, biases broadcast in two steps). Row by
  row both are the same function of the row, so a block of the kernel's result is the corresponding block of the
  host's. No finiteness is used: both spellings perform the same additions and multiplications in the same order.
-/
import proofs.«120092_j54065048323041_2_alg».proof.Proof.LibDenseLayer

noncomputable section

namespace Cert.LibMlpRows

open Idealize.ShloMosaic Idealize.ShloMosaic.ValueIdx Cert.LibPlainDot Cert.LibDotApply Cert.LibDenseLayer

variable {n K M N : Nat}

/-- The two layers on one row: affine, clamp at zero, affine. -/
def mlp (Wa : Fin K → Fin M → EReal) (ba : Fin M → EReal) (Wb : Fin M → Fin N → EReal) (bb : Fin N → EReal)
    (v : Fin K → EReal) : Fin N → EReal :=
  affine (relu (affine v Wa ba)) Wb bb

/-! ## The whole-array functions a region's result is stated with: biases as [1, M] rows -/

/-- Entry (r, c) is entry c of the two layers applied to row r of Z. -/
def dense (Z : (⟨2, ![n, K]⟩ : Shape).Idx → EReal) (Wa : (⟨2, ![K, M]⟩ : Shape).Idx → EReal)
    (ba : (⟨2, ![1, M]⟩ : Shape).Idx → EReal) (Wb : (⟨2, ![M, N]⟩ : Shape).Idx → EReal)
    (bb : (⟨2, ![1, N]⟩ : Shape).Idx → EReal) : (⟨2, ![n, N]⟩ : Shape).Idx → EReal :=
  fun i => mlp (mat Wa) (row ba 0) (mat Wb) (row bb 0) (row Z (i 0)) (i 1)

/-- The same, clamped at zero once more. -/
def denseRelu (Z : (⟨2, ![n, K]⟩ : Shape).Idx → EReal) (Wa : (⟨2, ![K, M]⟩ : Shape).Idx → EReal)
    (ba : (⟨2, ![1, M]⟩ : Shape).Idx → EReal) (Wb : (⟨2, ![M, N]⟩ : Shape).Idx → EReal)
    (bb : (⟨2, ![1, N]⟩ : Shape).Idx → EReal) : (⟨2, ![n, N]⟩ : Shape).Idx → EReal :=
  fun i => relu (mlp (mat Wa) (row ba 0) (mat Wb) (row bb 0) (row Z (i 0))) (i 1)

/-! ## The kernel's spelling on a block of rows -/

/-- The kernel's two layers on a block: the block narrowed to bf16, the hidden layer, the output layer. -/
def kMlp (d1 : DotDims ⟨2, ![n, K]⟩ ⟨2, ![K, M]⟩ ⟨2, ![n, M]⟩) (d2 : DotDims ⟨2, ![n, M]⟩ ⟨2, ![M, N]⟩ ⟨2, ![n, N]⟩)
    (x0 : FVec Ideal ⟨2, ![n, K]⟩ .f32) (x1 : FVec Ideal ⟨2, ![K, M]⟩ .f32) (x2 : FVec Ideal ⟨2, ![1, M]⟩ .f32)
    (x3 : FVec Ideal ⟨2, ![M, N]⟩ .f32) (x4 : FVec Ideal ⟨2, ![1, N]⟩ .f32)
    (hlt : FTy.bits .bf16 < FTy.bits .f32) (hs0 : (⟨2, ![n, K]⟩ : Shape).ShapeCasts ⟨2, ![n, K]⟩)
    (hs1 : (⟨2, ![1, M]⟩ : Shape).ShapeCasts ⟨2, ![1, M]⟩) (hb1 : (⟨2, ![1, M]⟩ : Shape).Broadcasts ⟨2, ![n, M]⟩)
    (hs2 : (⟨2, ![1, N]⟩ : Shape).ShapeCasts ⟨2, ![1, N]⟩) (hb2 : (⟨2, ![1, N]⟩ : Shape).Broadcasts ⟨2, ![n, N]⟩) :
    FVec Ideal ⟨2, ![n, N]⟩ .f32 :=
  kAffine d2 (kHidden d1 (truncf .bf16 (shapeCast ⟨2, ![n, K]⟩ x0 hs0) hlt) x1 x2 hlt hs1 hb1) x3 x4 hlt hs2 hb2

/-- Row p of the kernel's two layers is the two layers of row p of the block. -/
theorem row_kMlp (d1 : DotDims ⟨2, ![n, K]⟩ ⟨2, ![K, M]⟩ ⟨2, ![n, M]⟩) (hd1 : IsPlain d1)
    (d2 : DotDims ⟨2, ![n, M]⟩ ⟨2, ![M, N]⟩ ⟨2, ![n, N]⟩) (hd2 : IsPlain d2)
    (x0 : FVec Ideal ⟨2, ![n, K]⟩ .f32) (x1 : FVec Ideal ⟨2, ![K, M]⟩ .f32) (x2 : FVec Ideal ⟨2, ![1, M]⟩ .f32)
    (x3 : FVec Ideal ⟨2, ![M, N]⟩ .f32) (x4 : FVec Ideal ⟨2, ![1, N]⟩ .f32)
    (hlt : FTy.bits .bf16 < FTy.bits .f32) (hs0 : (⟨2, ![n, K]⟩ : Shape).ShapeCasts ⟨2, ![n, K]⟩)
    (hs1 : (⟨2, ![1, M]⟩ : Shape).ShapeCasts ⟨2, ![1, M]⟩) (hb1 : (⟨2, ![1, M]⟩ : Shape).Broadcasts ⟨2, ![n, M]⟩)
    (hs2 : (⟨2, ![1, N]⟩ : Shape).ShapeCasts ⟨2, ![1, N]⟩) (hb2 : (⟨2, ![1, N]⟩ : Shape).Broadcasts ⟨2, ![n, N]⟩)
    (p : Fin n) :
    row (kMlp d1 d2 x0 x1 x2 x3 x4 hlt hs0 hs1 hb1 hs2 hb2) p
      = mlp (mat x1) (row x2 0) (mat x3) (row x4 0) (row x0 p) := by
  unfold kMlp mlp
  rw [row_kAffine d2 hd2, row_kHidden d1 hd1, shapeCast_self]
  rfl

/-- The clamp of the kernel's two layers against a splat zero, row p. -/
theorem row_kMlp_relu (d1 : DotDims ⟨2, ![n, K]⟩ ⟨2, ![K, M]⟩ ⟨2, ![n, M]⟩) (hd1 : IsPlain d1)
    (d2 : DotDims ⟨2, ![n, M]⟩ ⟨2, ![M, N]⟩ ⟨2, ![n, N]⟩) (hd2 : IsPlain d2)
    (x0 : FVec Ideal ⟨2, ![n, K]⟩ .f32) (x1 : FVec Ideal ⟨2, ![K, M]⟩ .f32) (x2 : FVec Ideal ⟨2, ![1, M]⟩ .f32)
    (x3 : FVec Ideal ⟨2, ![M, N]⟩ .f32) (x4 : FVec Ideal ⟨2, ![1, N]⟩ .f32)
    (hlt : FTy.bits .bf16 < FTy.bits .f32) (hs0 : (⟨2, ![n, K]⟩ : Shape).ShapeCasts ⟨2, ![n, K]⟩)
    (hs1 : (⟨2, ![1, M]⟩ : Shape).ShapeCasts ⟨2, ![1, M]⟩) (hb1 : (⟨2, ![1, M]⟩ : Shape).Broadcasts ⟨2, ![n, M]⟩)
    (hs2 : (⟨2, ![1, N]⟩ : Shape).ShapeCasts ⟨2, ![1, N]⟩) (hb2 : (⟨2, ![1, N]⟩ : Shape).Broadcasts ⟨2, ![n, N]⟩)
    (p : Fin n) :
    row (maximumf (kMlp d1 d2 x0 x1 x2 x3 x4 hlt hs0 hs1 hb1 hs2 hb2)
        (broadcast ⟨2, ![n, N]⟩ (Scalar.ofBits .f32 0x00000000#32))) p
      = relu (mlp (mat x1) (row x2 0) (mat x3) (row x4 0) (row x0 p)) := by
  funext c
  show max (row (kMlp d1 d2 x0 x1 x2 x3 x4 hlt hs0 hs1 hb1 hs2 hb2) p c) (Ideal.ofBits .f32 0x00000000#32) = _
  rw [row_kMlp d1 hd1 d2 hd2]
  rfl

/-! ## The host's spelling on the whole matrix -/

/-- The host's two layers: the hidden layer, then the output layer. -/
def hMlp (d1 : DotDims ⟨2, ![n, K]⟩ ⟨2, ![K, M]⟩ ⟨2, ![n, M]⟩) (d2 : DotDims ⟨2, ![n, M]⟩ ⟨2, ![M, N]⟩ ⟨2, ![n, N]⟩)
    (z : FVec Ideal ⟨2, ![n, K]⟩ .f32) (Wa : FVec Ideal ⟨2, ![K, M]⟩ .f32) (ba : FVec Ideal ⟨1, ![M]⟩ .f32)
    (Wb : FVec Ideal ⟨2, ![M, N]⟩ .f32) (bb : FVec Ideal ⟨1, ![N]⟩ .f32)
    (h1a : (⟨1, ![M]⟩ : Shape).BroadcastsInDim ⟨2, ![1, M]⟩ ![1])
    (h2a : (⟨2, ![1, M]⟩ : Shape).BroadcastsInDim ⟨2, ![n, M]⟩ ![0, 1])
    (h0a : (⟨0, ![]⟩ : Shape).BroadcastsInDim ⟨2, ![n, M]⟩ ![])
    (h1b : (⟨1, ![N]⟩ : Shape).BroadcastsInDim ⟨2, ![1, N]⟩ ![1])
    (h2b : (⟨2, ![1, N]⟩ : Shape).BroadcastsInDim ⟨2, ![n, N]⟩ ![0, 1]) : FVec Ideal ⟨2, ![n, N]⟩ .f32 :=
  hAffine d2 (hHidden d1 z Wa ba h1a h2a h0a) Wb bb h1b h2b

/-- Row p of the host's two layers is the two layers of row p of its input. -/
theorem row_hMlp (d1 : DotDims ⟨2, ![n, K]⟩ ⟨2, ![K, M]⟩ ⟨2, ![n, M]⟩) (hd1 : IsPlain d1)
    (d2 : DotDims ⟨2, ![n, M]⟩ ⟨2, ![M, N]⟩ ⟨2, ![n, N]⟩) (hd2 : IsPlain d2)
    (z : FVec Ideal ⟨2, ![n, K]⟩ .f32) (Wa : FVec Ideal ⟨2, ![K, M]⟩ .f32) (ba : FVec Ideal ⟨1, ![M]⟩ .f32)
    (Wb : FVec Ideal ⟨2, ![M, N]⟩ .f32) (bb : FVec Ideal ⟨1, ![N]⟩ .f32)
    (h1a : (⟨1, ![M]⟩ : Shape).BroadcastsInDim ⟨2, ![1, M]⟩ ![1])
    (h2a : (⟨2, ![1, M]⟩ : Shape).BroadcastsInDim ⟨2, ![n, M]⟩ ![0, 1])
    (h0a : (⟨0, ![]⟩ : Shape).BroadcastsInDim ⟨2, ![n, M]⟩ ![])
    (h1b : (⟨1, ![N]⟩ : Shape).BroadcastsInDim ⟨2, ![1, N]⟩ ![1])
    (h2b : (⟨2, ![1, N]⟩ : Shape).BroadcastsInDim ⟨2, ![n, N]⟩ ![0, 1]) (p : Fin n) :
    row (hMlp d1 d2 z Wa ba Wb bb h1a h2a h0a h1b h2b) p = mlp (mat Wa) (vec ba) (mat Wb) (vec bb) (row z p) := by
  unfold hMlp mlp
  rw [row_hAffine d2 hd2, row_hHidden d1 hd1]

/-- The clamp of the host's two layers against a broadcast scalar zero, row p. -/
theorem row_hMlp_relu (d1 : DotDims ⟨2, ![n, K]⟩ ⟨2, ![K, M]⟩ ⟨2, ![n, M]⟩) (hd1 : IsPlain d1)
    (d2 : DotDims ⟨2, ![n, M]⟩ ⟨2, ![M, N]⟩ ⟨2, ![n, N]⟩) (hd2 : IsPlain d2)
    (z : FVec Ideal ⟨2, ![n, K]⟩ .f32) (Wa : FVec Ideal ⟨2, ![K, M]⟩ .f32) (ba : FVec Ideal ⟨1, ![M]⟩ .f32)
    (Wb : FVec Ideal ⟨2, ![M, N]⟩ .f32) (bb : FVec Ideal ⟨1, ![N]⟩ .f32)
    (h1a : (⟨1, ![M]⟩ : Shape).BroadcastsInDim ⟨2, ![1, M]⟩ ![1])
    (h2a : (⟨2, ![1, M]⟩ : Shape).BroadcastsInDim ⟨2, ![n, M]⟩ ![0, 1])
    (h0a : (⟨0, ![]⟩ : Shape).BroadcastsInDim ⟨2, ![n, M]⟩ ![])
    (h1b : (⟨1, ![N]⟩ : Shape).BroadcastsInDim ⟨2, ![1, N]⟩ ![1])
    (h2b : (⟨2, ![1, N]⟩ : Shape).BroadcastsInDim ⟨2, ![n, N]⟩ ![0, 1])
    (h0b : (⟨0, ![]⟩ : Shape).BroadcastsInDim ⟨2, ![n, N]⟩ ![]) (p : Fin n) :
    row (maximumf (hMlp d1 d2 z Wa ba Wb bb h1a h2a h0a h1b h2b)
        (broadcastInDim ⟨2, ![n, N]⟩ ![] h0b (constant ⟨0, ![]⟩ .f32 0x00000000#32))) p
      = relu (mlp (mat Wa) (vec ba) (mat Wb) (vec bb) (row z p)) := by
  funext c
  show max (row (hMlp d1 d2 z Wa ba Wb bb h1a h2a h0a h1b h2b) p c) (Ideal.ofBits .f32 0x00000000#32) = _
  rw [row_hMlp d1 hd1 d2 hd2]
  rfl

/-! ## The host's result is the whole-array function, with each bias reshaped to a [1, M] row -/

/-- The host's two layers are `dense` of the same matrices, the [M] biases read as [1, M] rows. -/
theorem hMlp_eq_dense (d1 : DotDims ⟨2, ![n, K]⟩ ⟨2, ![K, M]⟩ ⟨2, ![n, M]⟩) (hd1 : IsPlain d1)
    (d2 : DotDims ⟨2, ![n, M]⟩ ⟨2, ![M, N]⟩ ⟨2, ![n, N]⟩) (hd2 : IsPlain d2)
    (z : FVec Ideal ⟨2, ![n, K]⟩ .f32) (Wa : FVec Ideal ⟨2, ![K, M]⟩ .f32) (ba : FVec Ideal ⟨1, ![M]⟩ .f32)
    (Wb : FVec Ideal ⟨2, ![M, N]⟩ .f32) (bb : FVec Ideal ⟨1, ![N]⟩ .f32)
    (h1a : (⟨1, ![M]⟩ : Shape).BroadcastsInDim ⟨2, ![1, M]⟩ ![1])
    (h2a : (⟨2, ![1, M]⟩ : Shape).BroadcastsInDim ⟨2, ![n, M]⟩ ![0, 1])
    (h0a : (⟨0, ![]⟩ : Shape).BroadcastsInDim ⟨2, ![n, M]⟩ ![])
    (h1b : (⟨1, ![N]⟩ : Shape).BroadcastsInDim ⟨2, ![1, N]⟩ ![1])
    (h2b : (⟨2, ![1, N]⟩ : Shape).BroadcastsInDim ⟨2, ![n, N]⟩ ![0, 1])
    (hca : (⟨1, ![M]⟩ : Shape).ShapeCasts ⟨2, ![1, M]⟩) (hcb : (⟨1, ![N]⟩ : Shape).ShapeCasts ⟨2, ![1, N]⟩) :
    hMlp d1 d2 z Wa ba Wb bb h1a h2a h0a h1b h2b
      = dense z Wa (shapeCast ⟨2, ![1, M]⟩ ba hca) Wb (shapeCast ⟨2, ![1, N]⟩ bb hcb) := by
  funext i
  obtain ⟨p, c, rfl⟩ : ∃ (p : Fin n) (c : Fin N), i = ix2 p c := ⟨i 0, i 1, eq_ix2 i⟩
  show row (hMlp d1 d2 z Wa ba Wb bb h1a h2a h0a h1b h2b) p c = _
  rw [row_hMlp d1 hd1 d2 hd2]
  unfold dense
  rw [row_shapeCast_vec, row_shapeCast_vec]
  rfl

/-- The host's clamped two layers are `denseRelu` of the same matrices. -/
theorem hMlp_relu_eq_denseRelu (d1 : DotDims ⟨2, ![n, K]⟩ ⟨2, ![K, M]⟩ ⟨2, ![n, M]⟩) (hd1 : IsPlain d1)
    (d2 : DotDims ⟨2, ![n, M]⟩ ⟨2, ![M, N]⟩ ⟨2, ![n, N]⟩) (hd2 : IsPlain d2)
    (z : FVec Ideal ⟨2, ![n, K]⟩ .f32) (Wa : FVec Ideal ⟨2, ![K, M]⟩ .f32) (ba : FVec Ideal ⟨1, ![M]⟩ .f32)
    (Wb : FVec Ideal ⟨2, ![M, N]⟩ .f32) (bb : FVec Ideal ⟨1, ![N]⟩ .f32)
    (h1a : (⟨1, ![M]⟩ : Shape).BroadcastsInDim ⟨2, ![1, M]⟩ ![1])
    (h2a : (⟨2, ![1, M]⟩ : Shape).BroadcastsInDim ⟨2, ![n, M]⟩ ![0, 1])
    (h0a : (⟨0, ![]⟩ : Shape).BroadcastsInDim ⟨2, ![n, M]⟩ ![])
    (h1b : (⟨1, ![N]⟩ : Shape).BroadcastsInDim ⟨2, ![1, N]⟩ ![1])
    (h2b : (⟨2, ![1, N]⟩ : Shape).BroadcastsInDim ⟨2, ![n, N]⟩ ![0, 1])
    (h0b : (⟨0, ![]⟩ : Shape).BroadcastsInDim ⟨2, ![n, N]⟩ ![])
    (hca : (⟨1, ![M]⟩ : Shape).ShapeCasts ⟨2, ![1, M]⟩) (hcb : (⟨1, ![N]⟩ : Shape).ShapeCasts ⟨2, ![1, N]⟩) :
    maximumf (hMlp d1 d2 z Wa ba Wb bb h1a h2a h0a h1b h2b)
        (broadcastInDim ⟨2, ![n, N]⟩ ![] h0b (constant ⟨0, ![]⟩ .f32 0x00000000#32))
      = denseRelu z Wa (shapeCast ⟨2, ![1, M]⟩ ba hca) Wb (shapeCast ⟨2, ![1, N]⟩ bb hcb) := by
  funext i
  obtain ⟨p, c, rfl⟩ : ∃ (p : Fin n) (c : Fin N), i = ix2 p c := ⟨i 0, i 1, eq_ix2 i⟩
  show row (maximumf (hMlp d1 d2 z Wa ba Wb bb h1a h2a h0a h1b h2b)
        (broadcastInDim ⟨2, ![n, N]⟩ ![] h0b (constant ⟨0, ![]⟩ .f32 0x00000000#32))) p c = _
  rw [row_hMlp_relu d1 hd1 d2 hd2]
  unfold denseRelu
  rw [row_shapeCast_vec, row_shapeCast_vec]
  rfl

end Cert.LibMlpRows

end
-- ==== Proof.Region0.lean ====
/-
  The first convolution's dense part, from blocks to the whole array.

  The region walks the node axis in 5 blocks of 10000 rows. At point t it reads rows 10000·t … 10000·t + 9999 of
  the aggregated features, the two whole weight matrices and the two whole [1, 128] bias rows, and writes the same
  rows of its result: the two dense layers of each row, clamped at zero. The five row blocks tile the 50000 rows,
  so the array the region leaves is that function of the arrays it found, whatever those were (the statement is
  made at an arbitrary entry contents V).
-/
import proofs.«120092_j54065048323041_2_alg».proof.Proof.Gen.KernelIdeal.Frame
import proofs.«120092_j54065048323041_2_alg».proof.Proof.LibMlpRows
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.LibPlainDot Cert.LibDenseLayer Cert.LibMlpRows

variable (V : (c : Dev nD) → (b : Ref sig .tc) → Buf (Elt Ideal) ((c : Thread nD τ).loc b))

theorem origin : (![0, 0] : Fin 2 → Nat) = fun _ => 0 := funext fun a => by fin_cases a <;> rfl

/-- Both matrix products of the body contract axis 1 of the left operand with axis 0 of the right, no batch axes. -/
theorem plain : IsPlain dot_S10000x128_S128x128_S10000x128_1_0_0_1_n_n := ⟨rfl, rfl, rfl, rfl, rfl, rfl⟩

/-- The body's stored value at entry (p, q) of the block: entry q of the two layers applied to row p of the
    loaded feature block, with the loaded weights and bias rows. -/
theorem pay_apply (x0 : Vec Ideal S10000x128 .f32) (x1 : Vec Ideal S128x128 .f32) (x2 : Vec Ideal S1x128 .f32)
    (x3 : Vec Ideal S128x128 .f32) (x4 : Vec Ideal S1x128 .f32) (p : Fin 10000) (q : Fin 128) :
    k0_pay1 x0 x1 x2 x3 x4 (ix2 p q) = relu (mlp (mat x1) (row x2 0) (mat x3) (row x4 0) (row x0 p)) q :=
  congrFun (row_kMlp_relu _ plain _ plain x0 x1 x2 x3 x4 _ _ _ _ _ _ p) q

/-- The printed index maps over the grid: the feature window and the result window sit at the same row block and
    at column block 0; the weight and bias windows always sit at block (0, 0); point t is row block t. -/
theorem idx_facts : ∀ t : Fin cfg0.N, win0_0.index t (0 : Fin 2) = win0_5.index t (0 : Fin 2)
    ∧ win0_0.index t (1 : Fin 2) = 0 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 4 :=
  (by decide +kernel : ∀ t : Fin grid0.N, _)

/-- Every row block is some point's. -/
theorem idx_onto : ∀ q0 : Fin 5, ∃ t : Fin cfg0.N, win0_5.index t = ![q0.val, 0] :=
  (by decide +kernel : ∀ q0 : Fin 5, ∃ t : Fin grid0.N, win0_5.index t = ![q0.val, 0])

/-- What point t writes back is block t of the two layers of the arrays the region found. -/
theorem flushed_eq (c : Dev nD) (t : Fin cfg0.N) :
    (dat0 V c).flushed 5 t = ((cfg0.win 5).blk t).view.read (Elt Ideal)
      (denseRelu (V c main_v17) (V c main_arg2) (V c main_v18) (V c main_arg4) (V c main_v19)) := by
  show (cfg0.win 5).cut (grid0.coords t) ((dat0 V c).after 5 t) = _
  rw [after0_5]
  unfold out0_5
  rw [View.canon_unit_zero origin]
  simp only [View.ld_unit_zero (S := S10000x128) origin, View.ld_unit_zero (S := S128x128) origin,
    View.ld_unit_zero (S := S1x128) origin]
  obtain ⟨e05, e0c, e5c, e10, e11, e20, e21, e30, e31, e40, e41, -⟩ := idx_facts t
  funext j
  obtain ⟨p, q, rfl⟩ : ∃ (p : Fin 10000) (q : Fin 128), j = ix2 p q := ⟨j 0, j 1, eq_ix2 j⟩
  refine (pay_apply (iblk0 V c 0 t) (iblk0 V c 1 t) (iblk0 V c 2 t) (iblk0 V c 3 t) (iblk0 V c 4 t) p q).trans ?_
  -- each whole-array window's block is the array itself: block (0, 0) of extent the whole array
  have h1 : (iblk0 V c 1 t : S128x128.Idx → EReal) = V c main_arg2 := by
    funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have h2 : (iblk0 V c 2 t : S1x128.Idx → EReal) = V c main_v18 := by
    funext y
    show V c main_v18 (((cfg0.win 2).blk t).view.emb y) = V c main_v18 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  have h3 : (iblk0 V c 3 t : S128x128.Idx → EReal) = V c main_arg4 := by
    funext y
    show V c main_arg4 (((cfg0.win 3).blk t).view.emb y) = V c main_arg4 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have h4 : (iblk0 V c 4 t : S1x128.Idx → EReal) = V c main_v19 := by
    funext y
    show V c main_v19 (((cfg0.win 4).blk t).view.emb y) = V c main_v19 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  -- row p of the feature block is the row of the array at the result's row coordinate
  have h0 : row (iblk0 V c 0 t : S10000x128.Idx → EReal) p
      = row (V c main_v17) ((((cfg0.win 5).blk t).view.emb (ix2 p q)) 0) := by
    funext k
    show V c main_v17 (((cfg0.win 0).blk t).view.emb (ix2 p k)) = V c main_v17 (ix2 ((((cfg0.win 5).blk t).view.emb (ix2 p q)) 0) k)
    refine congrArg _ (funext fun a => Fin.ext ?_)
    match a with
    | ⟨0, _⟩ => show win0_0.index t (0 : Fin 2) * 10000 + 1 * p.val = win0_5.index t (0 : Fin 2) * 10000 + 1 * p.val; omega
    | ⟨1, _⟩ => show win0_0.index t (1 : Fin 2) * 128 + 1 * k.val = k.val; omega
  have hq : (((cfg0.win 5).blk t).view.emb (ix2 p q)) 1 = q := Fin.ext (by
    show win0_5.index t (1 : Fin 2) * 128 + 1 * q.val = q.val; omega)
  show _ = denseRelu (V c main_v17) (V c main_arg2) (V c main_v18) (V c main_arg4) (V c main_v19) (((cfg0.win 5).blk t).view.emb (ix2 p q))
  unfold denseRelu
  rw [h0, h1, h2, h3, h4, hq]

/-- An index of the result array is in point t's block iff each coordinate is in the block's range on its axis. -/
theorem mem_blk (t : Fin cfg0.N) (i : S50000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v20).slice (win0_5.rect t)).set ↔ _
  rw [View.set_slice_whole, Rect.mem_set_unit]
  exact Iff.rfl

/-- Every index of the result array is in some point's block: row r is in row block r / 10000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- The result array after the region: the two layers of the arrays the region found, row by row. -/
theorem final (c : Dev nD) :
    (dat0 V c).arrAt 5 cfg0.N = denseRelu (V c main_v17) (V c main_arg2) (V c main_v18) (V c main_arg4) (V c main_v19) :=
  (dat0 V c).arrAt_eq_of_cover 5 _ (fun t _ => flushed_eq V c t) cover

end Cert.KernelIdeal.Region0

end
-- ==== Proof.Region1.lean ====
/-
  The second convolution's dense part, from blocks to the whole array.

  As in the first convolution the region walks the node axis in 5 blocks of 10000 rows, reading at point t rows
  10000·t … 10000·t + 9999 of the aggregated features with the whole weight matrices and bias rows, and writing the
  same rows of its result: the two dense layers of each row (no final clamp). The five row blocks tile the 50000
  rows, so the array the region leaves is that function of the arrays it found, at any entry contents V.
-/
import proofs.«120092_j54065048323041_2_alg».proof.Proof.Gen.KernelIdeal.Frame
import proofs.«120092_j54065048323041_2_alg».proof.Proof.LibMlpRows
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.LibPlainDot Cert.LibDenseLayer Cert.LibMlpRows

variable (V : (c : Dev nD) → (b : Ref sig .tc) → Buf (Elt Ideal) ((c : Thread nD τ).loc b))

theorem origin : (![0, 0] : Fin 2 → Nat) = fun _ => 0 := funext fun a => by fin_cases a <;> rfl

/-- Both matrix products of the body contract axis 1 of the left operand with axis 0 of the right, no batch axes. -/
theorem plain : IsPlain dot_S10000x128_S128x128_S10000x128_1_0_0_1_n_n := ⟨rfl, rfl, rfl, rfl, rfl, rfl⟩

/-- The body's stored value at entry (p, q) of the block: entry q of the two layers applied to row p of the
    loaded feature block, with the loaded weights and bias rows. -/
theorem pay_apply (x0 : Vec Ideal S10000x128 .f32) (x1 : Vec Ideal S128x128 .f32) (x2 : Vec Ideal S1x128 .f32)
    (x3 : Vec Ideal S128x128 .f32) (x4 : Vec Ideal S1x128 .f32) (p : Fin 10000) (q : Fin 128) :
    k1_pay1 x0 x1 x2 x3 x4 (ix2 p q) = mlp (mat x1) (row x2 0) (mat x3) (row x4 0) (row x0 p) q :=
  congrFun (row_kMlp _ plain _ plain x0 x1 x2 x3 x4 _ _ _ _ _ _ p) q

/-- The printed index maps over the grid: the feature window and the result window sit at the same row block and
    at column block 0; the weight and bias windows always sit at block (0, 0); point t is row block t. -/
theorem idx_facts : ∀ t : Fin cfg1.N, win1_0.index t (0 : Fin 2) = win1_5.index t (0 : Fin 2)
    ∧ win1_0.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 4 :=
  (by decide +kernel : ∀ t : Fin grid1.N, _)

/-- Every row block is some point's. -/
theorem idx_onto : ∀ q0 : Fin 5, ∃ t : Fin cfg1.N, win1_5.index t = ![q0.val, 0] :=
  (by decide +kernel : ∀ q0 : Fin 5, ∃ t : Fin grid1.N, win1_5.index t = ![q0.val, 0])

/-- What point t writes back is block t of the two layers of the arrays the region found. -/
theorem flushed_eq (c : Dev nD) (t : Fin cfg1.N) :
    (dat1 V c).flushed 5 t = ((cfg1.win 5).blk t).view.read (Elt Ideal)
      (dense (V c main_v34) (V c main_arg6) (V c main_v35) (V c main_arg8) (V c main_v36)) := by
  show (cfg1.win 5).cut (grid1.coords t) ((dat1 V c).after 5 t) = _
  rw [after1_5]
  unfold out1_5
  rw [View.canon_unit_zero origin]
  simp only [View.ld_unit_zero (S := S10000x128) origin, View.ld_unit_zero (S := S128x128) origin,
    View.ld_unit_zero (S := S1x128) origin]
  obtain ⟨e05, e0c, e5c, e10, e11, e20, e21, e30, e31, e40, e41, -⟩ := idx_facts t
  funext j
  obtain ⟨p, q, rfl⟩ : ∃ (p : Fin 10000) (q : Fin 128), j = ix2 p q := ⟨j 0, j 1, eq_ix2 j⟩
  refine (pay_apply (iblk1 V c 0 t) (iblk1 V c 1 t) (iblk1 V c 2 t) (iblk1 V c 3 t) (iblk1 V c 4 t) p q).trans ?_
  -- each whole-array window's block is the array itself: block (0, 0) of extent the whole array
  have h1 : (iblk1 V c 1 t : S128x128.Idx → EReal) = V c main_arg6 := by
    funext y
    show V c main_arg6 (((cfg1.win 1).blk t).view.emb y) = V c main_arg6 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have h2 : (iblk1 V c 2 t : S1x128.Idx → EReal) = V c main_v35 := by
    funext y
    show V c main_v35 (((cfg1.win 2).blk t).view.emb y) = V c main_v35 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have h3 : (iblk1 V c 3 t : S128x128.Idx → EReal) = V c main_arg8 := by
    funext y
    show V c main_arg8 (((cfg1.win 3).blk t).view.emb y) = V c main_arg8 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have h4 : (iblk1 V c 4 t : S1x128.Idx → EReal) = V c main_v36 := by
    funext y
    show V c main_v36 (((cfg1.win 4).blk t).view.emb y) = V c main_v36 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  -- row p of the feature block is the row of the array at the result's row coordinate
  have h0 : row (iblk1 V c 0 t : S10000x128.Idx → EReal) p
      = row (V c main_v34) ((((cfg1.win 5).blk t).view.emb (ix2 p q)) 0) := by
    funext k
    show V c main_v34 (((cfg1.win 0).blk t).view.emb (ix2 p k)) = V c main_v34 (ix2 ((((cfg1.win 5).blk t).view.emb (ix2 p q)) 0) k)
    refine congrArg _ (funext fun a => Fin.ext ?_)
    match a with
    | ⟨0, _⟩ => show win1_0.index t (0 : Fin 2) * 10000 + 1 * p.val = win1_5.index t (0 : Fin 2) * 10000 + 1 * p.val; omega
    | ⟨1, _⟩ => show win1_0.index t (1 : Fin 2) * 128 + 1 * k.val = k.val; omega
  have hq : (((cfg1.win 5).blk t).view.emb (ix2 p q)) 1 = q := Fin.ext (by
    show win1_5.index t (1 : Fin 2) * 128 + 1 * q.val = q.val; omega)
  show _ = dense (V c main_v34) (V c main_arg6) (V c main_v35) (V c main_arg8) (V c main_v36) (((cfg1.win 5).blk t).view.emb (ix2 p q))
  unfold dense
  rw [h0, h1, h2, h3, h4, hq]

/-- An index of the result array is in point t's block iff each coordinate is in the block's range on its axis. -/
theorem mem_blk (t : Fin cfg1.N) (i : S50000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v37).slice (win1_5.rect t)).set ↔ _
  rw [View.set_slice_whole, Rect.mem_set_unit]
  exact Iff.rfl

/-- Every index of the result array is in some point's block: row r is in row block r / 10000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- The result array after the region: the two layers of the arrays the region found, row by row. -/
theorem final (c : Dev nD) :
    (dat1 V c).arrAt 5 cfg1.N = dense (V c main_v34) (V c main_arg6) (V c main_v35) (V c main_arg8) (V c main_v36) :=
  (dat1 V c).arrAt_eq_of_cover 5 _ (fun t _ => flushed_eq V c t) cover

end Cert.KernelIdeal.Region1

end
-- ==== Proof.KernelValue.lean ====
/-
  What the idealized kernel computes, as one function of its arguments.

  Each convolution is: aggregate (every node's row plus the rows of the nodes that point at it, the sum formed by an
  accumulating scatter seeded with the features themselves; both index rows of the edge list first wrapped where
  negative), then the two dense layers on every row. The host operations before a region are read off the boundary
  contents one operation at a time; what a region leaves in its result array is the dense part of what it found
  (the two region modules). Composing the four segments gives the result buffer at the end of the run as
  `value` of the launch contents of the ten arguments.
-/
import proofs.«120092_j54065048323041_2_alg».proof.Proof.Gen.KernelIdeal.Frame
import proofs.«120092_j54065048323041_2_alg».proof.Proof.Region0
import proofs.«120092_j54065048323041_2_alg».proof.Proof.Region1
import Idealize.ShloMosaic.Lib.StableHlo.Run

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen
open Cert.LibMlpRows

/-! ## The aggregation as the kernel's host operations spell it -/

/-- The source nodes of the edges: row 0 of the edge list. -/
def srcs (e : IVec S2x600000 32) : IVec S600000 32 :=
  shapeCast S600000 (extractStridedSlice S1x600000 ![0, 0] e slices_S2x600000_S1x600000_0_0) shapeCasts_S1x600000_S600000

/-- The destination nodes of the edges: row 1 of the edge list. -/
def dsts (e : IVec S2x600000 32) : IVec S600000 32 :=
  shapeCast S600000 (extractStridedSlice S1x600000 ![1, 0] e slices_S2x600000_S1x600000_1_0) shapeCasts_S1x600000_S600000

/-- A negative node index counts from the end: 50000 is added to it. -/
def wrap (v : IVec S600000 32) : IVec S600000 32 :=
  select (cmpi .slt v (broadcastInDim S600000 ![] bcast_S_S600000 (constantI S_ 32 0#32)))
    (addi v (broadcastInDim S600000 ![] bcast_S_S600000 (constantI S_ 32 50000#32))) v

/-- An index vector as the one-column index matrix gather and scatter take. -/
def col (v : IVec S600000 32) : IVec S600000x1 32 := broadcastInDim S600000x1 ![0] bcast_S600000_S600000x1_0 v

/-- Every node's row plus the rows of its in-neighbours: the scatter is seeded with the features themselves. -/
def agg (h : FVec Ideal S50000x128 .f32) (e : IVec S2x600000 32) : FVec Ideal S50000x128 .f32 :=
  Host.scatterAdd scatter_S50000x128_S600000x1_S600000x128_1_0_0_1 h (col (wrap (dsts e)))
    (Host.gather gather_S50000x128_S600000x1_S600000x128_1_0_n_n_0_1_1128 h (col (wrap (srcs e))))

/-- A bias vector as the [1, 128] row the region's window reads. -/
def biasRow (b : FVec Ideal S128 .f32) : FVec Ideal S1x128 .f32 := shapeCast S1x128 b shapeCasts_S128_S1x128

/-- The kernel's result as a function of its ten arguments. -/
def value (x : FVec Ideal S50000x128 .f32) (e : IVec S2x600000 32) (W1a : FVec Ideal S128x128 .f32) (b1a : FVec Ideal S128 .f32)
    (W1b : FVec Ideal S128x128 .f32) (b1b : FVec Ideal S128 .f32) (W2a : FVec Ideal S128x128 .f32) (b2a : FVec Ideal S128 .f32)
    (W2b : FVec Ideal S128x128 .f32) (b2b : FVec Ideal S128 .f32) : S50000x128.Idx → EReal :=
  dense (agg (denseRelu (agg x e) W1a (biasRow b1a) W1b (biasRow b1b)) e) W2a (biasRow b2a) W2b (biasRow b2b)

variable (m : (ℓ : Loc nD τ sig) → Buf (Elt Ideal) ℓ) (ρ : Dev nD → PrngReg)

/-! ## The first region's entry contents -/

set_option maxHeartbeats 2000000 in
theorem entry0_z (c : Dev nD) :
    (V1 m ρ c main_v17 : S50000x128.Idx → EReal) = agg (m ((c : Thread nD τ).loc main_arg0)) (m ((c : Thread nD τ).loc main_arg1)) := by
  show StableHlo.after hostOps0 (W0 m ρ c) (Proc.devRef .tc main_v17) = _
  simp only [hostOps0]
  after_results_simp <;> rfl

set_option maxHeartbeats 2000000 in
theorem entry0_Wa (c : Dev nD) : V1 m ρ c main_arg2 = m ((c : Thread nD τ).loc main_arg2) := by
  show StableHlo.after hostOps0 (W0 m ρ c) (Proc.devRef .tc main_arg2) = _
  simp only [hostOps0]
  after_results_simp <;> rfl

set_option maxHeartbeats 2000000 in
theorem entry0_ba (c : Dev nD) : (V1 m ρ c main_v18 : S1x128.Idx → EReal) = biasRow (m ((c : Thread nD τ).loc main_arg3)) := by
  show StableHlo.after hostOps0 (W0 m ρ c) (Proc.devRef .tc main_v18) = _
  simp only [hostOps0]
  after_results_simp <;> rfl

set_option maxHeartbeats 2000000 in
theorem entry0_Wb (c : Dev nD) : V1 m ρ c main_arg4 = m ((c : Thread nD τ).loc main_arg4) := by
  show StableHlo.after hostOps0 (W0 m ρ c) (Proc.devRef .tc main_arg4) = _
  simp only [hostOps0]
  after_results_simp <;> rfl

set_option maxHeartbeats 2000000 in
theorem entry0_bb (c : Dev nD) : (V1 m ρ c main_v19 : S1x128.Idx → EReal) = biasRow (m ((c : Thread nD τ).loc main_arg5)) := by
  show StableHlo.after hostOps0 (W0 m ρ c) (Proc.devRef .tc main_v19) = _
  simp only [hostOps0]
  after_results_simp <;> rfl

/-! ## The first region's result array -/

/-- After the first region its result array holds the clamped dense part of the aggregated input features. -/
theorem exit0 (c : Dev nD) :
    (W2 m ρ c (Proc.devRef .tc main_v20) : S50000x128.Idx → EReal)
      = denseRelu (agg (m ((c : Thread nD τ).loc main_arg0)) (m ((c : Thread nD τ).loc main_arg1)))
          (m ((c : Thread nD τ).loc main_arg2)) (biasRow (m ((c : Thread nD τ).loc main_arg3)))
          (m ((c : Thread nD τ).loc main_arg4)) (biasRow (m ((c : Thread nD τ).loc main_arg5))) := by
  refine (W2_arr m ρ c 5).trans ?_
  rw [Cert.KernelIdeal.Region0.final (V1 m ρ) c, entry0_z, entry0_Wa, entry0_ba, entry0_Wb, entry0_bb]

set_option maxHeartbeats 2000000 in
/-- Argument 6 is written by no host operation and by no region: at the first region's exit it is as launched. -/
theorem W2_main_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    simp only [hostOps0]
    after_results_simp <;> rfl)

set_option maxHeartbeats 2000000 in
/-- Argument 7 is written by no host operation and by no region: at the first region's exit it is as launched. -/
theorem W2_main_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    simp only [hostOps0]
    after_results_simp <;> rfl)

set_option maxHeartbeats 2000000 in
/-- Argument 8 is written by no host operation and by no region: at the first region's exit it is as launched. -/
theorem W2_main_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    simp only [hostOps0]
    after_results_simp <;> rfl)

set_option maxHeartbeats 2000000 in
/-- Argument 9 is written by no host operation and by no region: at the first region's exit it is as launched. -/
theorem W2_main_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    simp only [hostOps0]
    after_results_simp <;> rfl)

set_option maxHeartbeats 2000000 in
/-- The source index vector the first host stretch computed is still there at the first region's exit. -/
theorem W2_srcs (c : Dev nD) :
    (W2 m ρ c (Proc.devRef .tc main_v1) : IVec S600000 32) = srcs (m ((c : Thread nD τ).loc main_arg1)) :=
  (W2_of_ne m ρ c main_v1 (by decide)).trans (by
    show StableHlo.after hostOps0 (W0 m ρ c) (Proc.devRef .tc main_v1) = _
    simp only [hostOps0]
    after_results_simp <;> rfl)

set_option maxHeartbeats 2000000 in
/-- So is the destination index vector. -/
theorem W2_dsts (c : Dev nD) :
    (W2 m ρ c (Proc.devRef .tc main_v3) : IVec S600000 32) = dsts (m ((c : Thread nD τ).loc main_arg1)) :=
  (W2_of_ne m ρ c main_v3 (by decide)).trans (by
    show StableHlo.after hostOps0 (W0 m ρ c) (Proc.devRef .tc main_v3) = _
    simp only [hostOps0]
    after_results_simp <;> rfl)

/-! ## The second region's entry contents -/

set_option maxHeartbeats 2000000 in
theorem entry1_z (c : Dev nD) :
    (V3 m ρ c main_v34 : S50000x128.Idx → EReal)
      = agg (W2 m ρ c (Proc.devRef .tc main_v20)) (m ((c : Thread nD τ).loc main_arg1)) := by
  show StableHlo.after hostOps1 (W2 m ρ c) (Proc.devRef .tc main_v34) = _
  simp only [hostOps1]
  after_results_simp
  rw [W2_srcs, W2_dsts]
  rfl

set_option maxHeartbeats 2000000 in
theorem entry1_Wa (c : Dev nD) : V3 m ρ c main_arg6 = m ((c : Thread nD τ).loc main_arg6) := by
  show StableHlo.after hostOps1 (W2 m ρ c) (Proc.devRef .tc main_arg6) = _
  simp only [hostOps1]
  after_results_simp
  exact W2_main_arg6 m ρ c

set_option maxHeartbeats 2000000 in
theorem entry1_ba (c : Dev nD) : (V3 m ρ c main_v35 : S1x128.Idx → EReal) = biasRow (m ((c : Thread nD τ).loc main_arg7)) := by
  show StableHlo.after hostOps1 (W2 m ρ c) (Proc.devRef .tc main_v35) = _
  simp only [hostOps1]
  after_results_simp
  rw [W2_main_arg7]
  rfl

set_option maxHeartbeats 2000000 in
theorem entry1_Wb (c : Dev nD) : V3 m ρ c main_arg8 = m ((c : Thread nD τ).loc main_arg8) := by
  show StableHlo.after hostOps1 (W2 m ρ c) (Proc.devRef .tc main_arg8) = _
  simp only [hostOps1]
  after_results_simp
  exact W2_main_arg8 m ρ c

set_option maxHeartbeats 2000000 in
theorem entry1_bb (c : Dev nD) : (V3 m ρ c main_v36 : S1x128.Idx → EReal) = biasRow (m ((c : Thread nD τ).loc main_arg9)) := by
  show StableHlo.after hostOps1 (W2 m ρ c) (Proc.devRef .tc main_v36) = _
  simp only [hostOps1]
  after_results_simp
  rw [W2_main_arg9]
  rfl

/-! ## The result buffer at the end of the run -/

/-- At the last boundary the result buffer holds `value` of the ten arguments' launch contents. -/
theorem result (c : Dev nD) :
    (W4 m ρ c (Proc.devRef .tc main_v37) : S50000x128.Idx → EReal)
      = value (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) := by
  refine (W4_arr m ρ c 5).trans ?_
  rw [Cert.KernelIdeal.Region1.final (V3 m ρ) c, entry1_z, entry1_Wa, entry1_ba, entry1_Wb, entry1_bb, exit0]
  rfl

end Cert.KernelIdeal.Named

end
-- ==== Proof.RefValue.lean ====
/-
  What the idealized reference computes, as one function of its arguments.

  Each convolution is: aggregate (every node's row plus the sum, formed by an accumulating scatter into zeros, of
  the rows of the nodes that point at it; only the source index row is wrapped where negative, the destination row
  is used as it is), then the two dense layers on every row; the first convolution's result is clamped at zero.
  The generated run states the result buffer at the operations' composed term; that term is `value` below, the
  same operations grouped by stage.
-/
import proofs.«120092_j54065048323041_2_alg».proof.Proof.Gen.ReferenceIdeal.Run
import proofs.«120092_j54065048323041_2_alg».proof.Proof.LibMlpRows

set_option maxRecDepth 16384

noncomputable section

namespace Cert.ReferenceIdeal.RefValue

open Idealize.ShloMosaic Idealize.ShloMosaic.TcCoe Idealize.SL.Sem
open Cert.ReferenceIdeal Cert.ReferenceIdeal.Facts₀ Cert.ReferenceIdeal.Facts
open Cert.LibMlpRows

/-- The source nodes of the edges: row 0 of the edge list. -/
def srcs (e : IVec S2x600000 32) : IVec S600000 32 :=
  shapeCast S600000 (extractStridedSlice S1x600000 ![0, 0] e slices_S2x600000_S1x600000_0_0) shapeCasts_S1x600000_S600000

/-- The destination nodes of the edges: row 1 of the edge list. -/
def dsts (e : IVec S2x600000 32) : IVec S600000 32 :=
  shapeCast S600000 (extractStridedSlice S1x600000 ![1, 0] e slices_S2x600000_S1x600000_1_0) shapeCasts_S1x600000_S600000

/-- A negative node index counts from the end: 50000 is added to it. -/
def wrap (v : IVec S600000 32) : IVec S600000 32 :=
  select (cmpi .slt v (broadcastInDim S600000 ![] bcast_S_S600000 (constantI S_ 32 0#32)))
    (addi v (broadcastInDim S600000 ![] bcast_S_S600000 (constantI S_ 32 50000#32))) v

/-- An index vector as the one-column index matrix gather and scatter take. -/
def col (v : IVec S600000 32) : IVec S600000x1 32 := broadcastInDim S600000x1 ![0] bcast_S600000_S600000x1_0 v

/-- The all-zero feature matrix the reference's scatter starts from, and its clamp compares with. -/
def zeros : FVec Ideal S50000x128 .f32 :=
  broadcastInDim S50000x128 ![] bcast_S_S50000x128 (constant (F := Ideal) S_ .f32 0x00000000#32)

/-- Every node's row plus the sum of its in-neighbours' rows, the sum scattered into zeros. -/
def agg (h : FVec Ideal S50000x128 .f32) (e : IVec S2x600000 32) : FVec Ideal S50000x128 .f32 :=
  addf h (Host.scatterAdd scatter_S50000x128_S600000x1_S600000x128_1_0_0_1 zeros (col (dsts e))
    (Host.gather gather_S50000x128_S600000x1_S600000x128_1_0_n_n_0_1_1128 h (col (wrap (srcs e)))))

/-- The two dense layers on the whole feature matrix. -/
def layers (z : FVec Ideal S50000x128 .f32) (Wa : FVec Ideal S128x128 .f32) (ba : FVec Ideal S128 .f32)
    (Wb : FVec Ideal S128x128 .f32) (bb : FVec Ideal S128 .f32) : FVec Ideal S50000x128 .f32 :=
  hMlp dot_S50000x128_S128x128_S50000x128_1_0_0_1_n_n dot_S50000x128_S128x128_S50000x128_1_0_0_1_n_n z Wa ba Wb bb
    bcast_S128_S1x128_1 bcast_S1x128_S50000x128_0_1 bcast_S_S50000x128 bcast_S128_S1x128_1 bcast_S1x128_S50000x128_0_1

/-- The reference's result as a function of its ten arguments. -/
def value (x : FVec Ideal S50000x128 .f32) (e : IVec S2x600000 32) (W1a : FVec Ideal S128x128 .f32) (b1a : FVec Ideal S128 .f32)
    (W1b : FVec Ideal S128x128 .f32) (b1b : FVec Ideal S128 .f32) (W2a : FVec Ideal S128x128 .f32) (b2a : FVec Ideal S128 .f32)
    (W2b : FVec Ideal S128x128 .f32) (b2b : FVec Ideal S128 .f32) : FVec Ideal S50000x128 .f32 :=
  layers (agg (maximumf (layers (agg x e) W1a b1a W1b b1b) zeros) e) W2a b2a W2b b2b

/-- The generated run's composed term is `value` of the arguments' launch contents. -/
theorem res_eq (m : (ℓ : Loc nD τ sig) → Buf (Elt Ideal) ℓ) (c : Dev nD) :
    Cert.ReferenceIdeal.Value.res_main_v44 (F := Ideal) m c
      = value (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v44
  rfl

end Cert.ReferenceIdeal.RefValue

end
-- ==== Proof.Domain.lean ====
/-
  What the precondition says about the edge list.

  Besides the finiteness of the float inputs the precondition asks that no destination node index (row 1 of the
  edge list) is negative: the conjunction of the componentwise comparison "entry ≥ 0, read signed" over all
  600000 edges is 1. Read back, the comparison holds at every edge.
-/
import proofs.«120092_j54065048323041_2_alg».proof.Pre_finite_inputs
import proofs.«120092_j54065048323041_2_alg».proof.Proof.Gen.Pre_finite_inputs
import Idealize.ShloMosaic.Lib.ReduceAll
import Idealize.ShloMosaic.Lib.ValueIdx
import Idealize.ShloMosaic.Lib.Affine

set_option maxRecDepth 16384

namespace Cert.Domain

open Idealize.ShloMosaic Cert.Pre_finite_inputs Cert.Pre_finite_inputs.Facts

instance : Subsingleton S_.Idx := ⟨fun a b => funext fun d => d.elim0⟩

/-- Where the precondition holds, every destination index is non-negative: the comparison against zero is 1 at
    every edge. -/
theorem dst_nonneg {F : FTy → Type} [FloatOps F] (a0 : FVec F S50000x128 .f32) (a1 : IVec S2x600000 32)
    (a2 : FVec F S128x128 .f32) (a3 : FVec F S128 .f32) (a4 : FVec F S128x128 .f32) (a5 : FVec F S128 .f32)
    (a6 : FVec F S128x128 .f32) (a7 : FVec F S128 .f32) (a8 : FVec F S128x128 .f32) (a9 : FVec F S128 .f32)
    (h : fn (F := F) a0 a1 a2 a3 a4 a5 a6 a7 a8 a9 = fun _ => 1#1) (j : S600000.Idx) :
    cmpi .sge (shapeCast S600000 (extractStridedSlice S1x600000 ![1, 0] a1 slices_S2x600000_S1x600000_1_0) shapeCasts_S1x600000_S600000)
      (broadcastInDim S600000 ![] bcast_S_S600000 (constantI S_ 32 0#32)) j = 1#1 := by
  have h0 := congrFun h ValueIdx.ix0
  dsimp only [fn, fn_part1, fn_part2] at h0
  have h1 := (IntOp.andi_eq_one.mp h0).2
  exact Host.reduce_andi_all _ _ _ _ _ h1 j

end Cert.Domain
-- ==== Proof.LibScatterSeed.lean ====
/-
  The neighbour aggregation of one graph convolution, over the extended reals.

  A convolution first forms z = h + (the sum, over the edges that point at each node, of the source node's row of h).
  One program seeds an accumulating scatter with h itself; the other scatters into zeros and adds h afterwards.
  An accumulating scatter at the exact instance is "each operand element plus the sum of the updates that land on
  it", so the two are the same sum: addition of extended reals is associative and 0 + s = s, with no finiteness
  needed. The two programs also differ in the destination index they hand to the scatter: one first wraps a
  negative index by the number of nodes, the other passes it as it is. Where no destination is negative the wrap
  changes nothing.
-/
import Idealize.ShloMosaic.PureOps.Ideal.Laws
import Idealize.ShloMosaic.Lib.ValueIdx
import Idealize.ShloMosaic.Lib.DynamicIndex
import Idealize.ShloMosaic.Lib.Affine

noncomputable section

namespace Cert.LibScatterSeed

open Idealize.ShloMosaic Idealize.ShloMosaic.ValueIdx

/-- An accumulating scatter seeded with x is x plus the same scatter seeded with an all-zero array: at each
    element both are x i + (the sum of the updates landing on i). -/
theorem scatterAdd_seed {s si su : Shape} {w : Nat} (d : ScatterDims s si su) (x z : FVec Ideal s .f32)
    (idx : IVec si w) (upd : FVec Ideal su .f32) (hz : ∀ i, z i = (0 : EReal)) :
    Host.scatterAdd d x idx upd = addf x (Host.scatterAdd d z idx upd) := by
  funext i
  show x i + _ = x i + (z i + _)
  rw [hz i, zero_add]

/-- Wrapping the negative entries of an index vector (adding c to them) leaves a vector with no negative entry
    unchanged. The hypothesis is the comparison "entry ≥ 0, read signed" holding at every position. -/
theorem wrap_of_nonneg {s : Shape} (d z c : IVec s 32) (hz : ∀ j, z j = 0#32)
    (h : ∀ j, cmpi .sge d z j = 1#1) : select (cmpi .slt d z) (addi d c) d = d := by
  obtain rfl : z = constantI s 32 0#32 := funext hz
  funext j
  refine select_slt_zero_of_nonneg d (addi d c) d j ?_
  have hj : IntOp.cmpi .sge (d j) (0#32) = 1#1 := h j
  have := IntOp.cmpi_sge.mp hj
  simpa using this

end Cert.LibScatterSeed

end
-- ==== Proof.Bridge.lean ====
/-
  The two programs compute one function wherever no destination node index is negative.

  Stage by stage: the reference's aggregation h + scatter(0, dst, h[src]) is the kernel's scatter(h, wrap dst, h[src])
  — the seeded scatter adds the same updates to the same rows, and wrapping changes no index that is not negative;
  the source indices are wrapped identically on both sides and need no hypothesis. The reference's dense layers on the
  whole matrix are, row by row, the function the kernel's regions leave block by block, the [128] biases read as
  [1, 128] rows. Composing the two convolutions gives equal results at every entry. Only the sign of the
  destination indices is used; the finiteness of the float inputs is not.
-/
import proofs.«120092_j54065048323041_2_alg».proof.Proof.KernelValue
import proofs.«120092_j54065048323041_2_alg».proof.Proof.RefValue
import proofs.«120092_j54065048323041_2_alg».proof.Proof.LibScatterSeed

set_option maxRecDepth 16384

noncomputable section

namespace Cert.Bridge

open Idealize.ShloMosaic Cert.LibMlpRows Cert.LibPlainDot
open Cert.KernelIdeal (S50000x128 S2x600000 S600000 S_ S128x128 S128)

/-- The reference's matrix products contract axis 1 of the left operand with axis 0 of the right, no batch axes. -/
theorem plainR : IsPlain Cert.ReferenceIdeal.dot_S50000x128_S128x128_S50000x128_1_0_0_1_n_n := ⟨rfl, rfl, rfl, rfl, rfl, rfl⟩

/-- The hypothesis the precondition supplies: the comparison "destination ≥ 0, read signed" is 1 at every edge. -/
def DstNonneg (e : IVec S2x600000 32) : Prop :=
  ∀ j, cmpi .sge (Cert.KernelIdeal.Named.dsts e)
    (broadcastInDim S600000 ![] Cert.KernelIdeal.Gen.bcast_S_S600000 (constantI S_ 32 0#32)) j = 1#1

/-- The two aggregations agree on any feature matrix. -/
theorem agg_eq (h : FVec Ideal S50000x128 .f32) (e : IVec S2x600000 32) (hd : DstNonneg e) :
    Cert.ReferenceIdeal.RefValue.agg h e = Cert.KernelIdeal.Named.agg h e := by
  have hw : Cert.KernelIdeal.Named.wrap (Cert.KernelIdeal.Named.dsts e) = Cert.KernelIdeal.Named.dsts e :=
    Cert.LibScatterSeed.wrap_of_nonneg _ _ _ (fun _ => rfl) hd
  unfold Cert.KernelIdeal.Named.agg
  rw [hw]
  exact (Cert.LibScatterSeed.scatterAdd_seed Cert.KernelIdeal.scatter_S50000x128_S600000x1_S600000x128_1_0_0_1 h
    Cert.ReferenceIdeal.RefValue.zeros _ _ (fun _ => Ideal.ofBits_zero_f32)).symm

/-- The reference's two dense layers are the whole-array function the second region leaves. -/
theorem layers_eq (z : FVec Ideal S50000x128 .f32) (Wa : FVec Ideal S128x128 .f32) (ba : FVec Ideal S128 .f32)
    (Wb : FVec Ideal S128x128 .f32) (bb : FVec Ideal S128 .f32) :
    Cert.ReferenceIdeal.RefValue.layers z Wa ba Wb bb
      = dense z Wa (Cert.KernelIdeal.Named.biasRow ba) Wb (Cert.KernelIdeal.Named.biasRow bb) :=
  hMlp_eq_dense _ plainR _ plainR z Wa ba Wb bb _ _ _ _ _ _ _

/-- The reference's clamped two dense layers are the whole-array function the first region leaves. -/
theorem layers_relu_eq (z : FVec Ideal S50000x128 .f32) (Wa : FVec Ideal S128x128 .f32) (ba : FVec Ideal S128 .f32)
    (Wb : FVec Ideal S128x128 .f32) (bb : FVec Ideal S128 .f32) :
    maximumf (Cert.ReferenceIdeal.RefValue.layers z Wa ba Wb bb) Cert.ReferenceIdeal.RefValue.zeros
      = denseRelu z Wa (Cert.KernelIdeal.Named.biasRow ba) Wb (Cert.KernelIdeal.Named.biasRow bb) :=
  hMlp_relu_eq_denseRelu _ plainR _ plainR z Wa ba Wb bb _ _ _ _ _ _ _ _

/-- The reference's result is the kernel's, as functions of the ten arguments. -/
theorem value_eq (x : FVec Ideal S50000x128 .f32) (e : IVec S2x600000 32) (W1a : FVec Ideal S128x128 .f32) (b1a : FVec Ideal S128 .f32)
    (W1b : FVec Ideal S128x128 .f32) (b1b : FVec Ideal S128 .f32) (W2a : FVec Ideal S128x128 .f32) (b2a : FVec Ideal S128 .f32)
    (W2b : FVec Ideal S128x128 .f32) (b2b : FVec Ideal S128 .f32) (hd : DstNonneg e) :
    Cert.ReferenceIdeal.RefValue.value x e W1a b1a W1b b1b W2a b2a W2b b2b
      = Cert.KernelIdeal.Named.value x e W1a b1a W1b b1b W2a b2a W2b b2b := by
  unfold Cert.ReferenceIdeal.RefValue.value Cert.KernelIdeal.Named.value
  rw [layers_relu_eq, layers_eq, agg_eq _ e hd, agg_eq _ e hd]

end Cert.Bridge

end
-- ==== Proof.lean ====
/-
  A two-layer graph isomorphism network, kernel against reference, over the extended reals.

  Both programs compute, twice, z = h + (the sum over incoming edges of the source node's row), then
  max(z·Wa + ba, 0)·Wb + bb on every row, the first convolution clamped at zero once more. The kernel seeds an
  accumulating scatter with h and wraps negative destination indices by the number of nodes; the reference scatters
  into zeros, adds h, and leaves destination indices as they are. The two aggregations are the same sum exactly when
  the wrap changes nothing, which is what the precondition's added conjunct (no destination index is negative) gives;
  the dense layers agree row by row, the kernel computing them in five blocks of 10000 rows per region. The three
  frames are the generated ones (the reference's is its generated run with the result dropped), the idealization
  rewrote nothing, and the value claim joins the kernel's run, read segment by segment, to the reference's generated
  run through one function of the ten arguments.
-/
import proofs.«120092_j54065048323041_2_alg».proof.Defs
import proofs.«120092_j54065048323041_2_alg».proof.Proof.Gen.Kernel
import proofs.«120092_j54065048323041_2_alg».proof.Proof.Gen.Kernel.Skeleton
import proofs.«120092_j54065048323041_2_alg».proof.Proof.Gen.Kernel.Launch
import proofs.«120092_j54065048323041_2_alg».proof.Proof.Gen.Kernel.Points
import proofs.«120092_j54065048323041_2_alg».proof.Proof.Gen.Kernel.Frame
import proofs.«120092_j54065048323041_2_alg».proof.Proof.Gen.KernelIdeal
import proofs.«120092_j54065048323041_2_alg».proof.Proof.Gen.KernelIdeal.Skeleton
import proofs.«120092_j54065048323041_2_alg».proof.Proof.Gen.KernelIdeal.Launch
import proofs.«120092_j54065048323041_2_alg».proof.Proof.Gen.KernelIdeal.Points
import proofs.«120092_j54065048323041_2_alg».proof.Proof.Gen.KernelIdeal.Frame
import proofs.«120092_j54065048323041_2_alg».proof.Proof.Gen.ReferenceIdeal
import proofs.«120092_j54065048323041_2_alg».proof.Proof.Gen.ReferenceIdeal.Run
import proofs.«120092_j54065048323041_2_alg».proof.Proof.Gen.Pre_finite_inputs
import proofs.«120092_j54065048323041_2_alg».proof.Proof.KernelRun
import proofs.«120092_j54065048323041_2_alg».proof.Proof.KernelValue
import proofs.«120092_j54065048323041_2_alg».proof.Proof.RefValue
import proofs.«120092_j54065048323041_2_alg».proof.Proof.Domain
import proofs.«120092_j54065048323041_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result: the kernel's run leaves `value` of the arguments in its result
    buffer, the reference's run leaves its own composed term, and the two are one function where no destination index
    is negative. -/
theorem algebraic : Cert.algebraic_KernelIdeal_ReferenceIdeal := by
  intro m ρ m' ρ' hpre hagree
  refine ⟨fun c => Cert.KernelIdeal.Named.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Named.result m ρ c), (h c).2⟩)
      (Cert.KernelIdeal.Named.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9⟩ := hagree c
    refine (h c).1.trans ((Cert.ReferenceIdeal.RefValue.res_eq m' c).trans ?_)
    rw [e0, e1, e2, e3, e4, e5, e6, e7, e8, e9]
    exact Cert.Bridge.value_eq _ _ _ _ _ _ _ _ _ _ (fun j => Cert.Domain.dst_nonneg _ _ _ _ _ _ _ _ _ _ (hpre c) j)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
